-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S2048x256 : Shape := ⟨2, ![2048, 256]⟩
abbrev S1024x256 : Shape := ⟨2, ![1024, 256]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1024, .f32⟩
  | .local _ .vmem, ⟨5, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  reduces_S2048x256_S2048 : S2048x256.Reduces [1] S2048
  shapeCasts_S2048_S2048x1 : S2048.ShapeCasts S2048x1
  reduces_S1024x256_S1024 : S1024x256.Reduces [1] S1024
  shapeCasts_S1024_S1024x1 : S1024.ShapeCasts S1024x1
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Rbf.lean ====
/-
  The radial-basis-function matrix of two families of 256-dimensional points, on the extended reals.

  For points x_p (the rows of an [a, 256] array) and y_q (the rows of a [b, 256] array) the entry (p, q) is

      exp (-1 · max (‖x_p‖² + ‖y_q‖² - 2 · ⟨x_p, y_q⟩, 0)),

  the squared distance ‖x_p - y_q‖² expanded into two squared norms and an inner product, clamped below at zero, and
  the Gaussian of it. The three constants -1, 2 and 0 are kept as the f32 words the two programs print, so that the
  same word on both sides is never evaluated. An entry depends on the two arrays only through three numbers — the
  squared norm of its row of x, the squared norm of its row of y, and their inner product — and `entry` is that
  dependence; a block of the matrix and the whole matrix are then the same function `entry` of sums over the 256
  features, read at a block's rows or at the arrays' rows.
-/
import Idealize.ShloMosaic.PureOps.Ideal
import Idealize.ShloMosaic.Lib.ValueIdx

noncomputable section

open scoped BigOperators

namespace Cert.Rbf

open Idealize.ShloMosaic Idealize.ShloMosaic.ValueIdx

/-- The squared norm of row `p`: the sum over the 256 features of the squared entries. -/
def sqNorm {a : ℕ} (x : (⟨2, ![a, 256]⟩ : Shape).Idx → EReal) (p : Fin a) : EReal :=
  ∑ k : Fin 256, x (ix2 p k) * x (ix2 p k)

/-- The inner product of row `p` of `x` with row `q` of `y`. -/
def inner {a b : ℕ} (x : (⟨2, ![a, 256]⟩ : Shape).Idx → EReal) (y : (⟨2, ![b, 256]⟩ : Shape).Idx → EReal)
    (p : Fin a) (q : Fin b) : EReal :=
  ∑ k : Fin 256, x (ix2 p k) * y (ix2 q k)

/-- One entry from the three numbers it depends on: `exp (-1 · max (sx + sy - 2 · xy, 0))`. -/
def entry (sx sy xy : EReal) : EReal :=
  Ideal.exp (Ideal.ofBits .f32 0xBF800000#32
    * max (sx + sy - Ideal.ofBits .f32 0x40000000#32 * xy) (Ideal.ofBits .f32 0x00000000#32))

/-- The whole 8192 × 8192 matrix of the rows of two [8192, 256] arrays. -/
def rbf (x y : (⟨2, ![8192, 256]⟩ : Shape).Idx → EReal) : (⟨2, ![8192, 8192]⟩ : Shape).Idx → EReal :=
  fun i => entry (sqNorm x (i 0)) (sqNorm y (i 1)) (inner x y (i 0) (i 1))

/-- The matrix at row `p`, column `q`. -/
theorem rbf_apply (x y : (⟨2, ![8192, 256]⟩ : Shape).Idx → EReal) (p q : Fin 8192) :
    rbf x y (ix2 p q) = entry (sqNorm x p) (sqNorm y q) (inner x y p q) := rfl

end Cert.Rbf

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.BlockEntry.lean ====
/-
  What the kernel body computes for one block, read at one entry.

  The body loads a block of 2048 rows of x and a block of 1024 rows of y and stores a 2048 × 1024 block. Its value at
  (p, q) is `Rbf.entry` of three numbers. The squared norm of row p of the x block is a lane sum of the squares, kept
  as a column and spread along the columns of the output; the squared norm of row q of the y block is the same lane
  sum kept as a column, turned into a row by a transpose, and spread along the rows; the inner product of the two rows
  is the matrix product of the x block with the y block contracting both last axes, into a zero accumulator. The sum,
  the difference with twice the product, the clamp at zero, the product with -1 and the exponential are pointwise.
-/
import proofs.«181214_j65481071399427_2_alg».proof.Proof.Gen.KernelIdeal.Skeleton
import proofs.«181214_j65481071399427_2_alg».proof.Proof.Rbf
import proofs.«181214_j65481071399427_2_alg».proof.Proof.LibMatmulRows
import proofs.«181214_j65481071399427_2_alg».proof.Proof.LibColBroadcast
import proofs.«181214_j65481071399427_2_alg».proof.Proof.LibColumnCast
import Idealize.ShloMosaic.Lib.ValueLayout
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx

/-! ## The lane sum of squares -/

/-- The sum along the features of the squares of an [a, 256] block, from the zero accumulator, read at row `p`: the
    squared norm of that row. -/
theorem laneSumSq {a : ℕ} (v : FVec Ideal ⟨2, ![a, 256]⟩ .f32) (h : (⟨2, ![a, 256]⟩ : Shape).Reduces [1] ⟨1, ![a]⟩)
    (p : Fin a) :
    multiReduction .add [1] ⟨1, ![a]⟩ (mulf v v) 0x00000000#32 h (.inl rfl) rfl (ix1 p) = Cert.Rbf.sqNorm v p := by
  refine (Ideal.multiReduction_add_single (mulf v v) 0x00000000#32 h (.inl rfl) rfl (ix1 p)).trans ?_
  unfold Cert.Rbf.sqNorm
  refine Finset.sum_congr rfl fun k _ => ?_
  have e : h.lift (ix1 p) k = ix2 p k :=
    funext fun ax => Fin.ext (by match ax with | ⟨0, _⟩ => rfl | ⟨1, _⟩ => rfl)
  show v (h.lift (ix1 p) k) * v (h.lift (ix1 p) k) = _
  rw [e]
  rfl

/-! ## The two layouts of a vector of row sums -/

/-- A vector of `a` row sums stood up as a column and spread over `b` columns reads, at (p, q), entry `p`. -/
theorem column_spread {a b : ℕ} (s : FVec Ideal ⟨1, ![a]⟩ .f32) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ s hc) hb (ix2 p q) = s (ix1 p) :=
  (Cert.LibColBroadcast.broadcastTo_a1_ab_apply _ hb p q).trans (Cert.LibColumnCast.shapeCast_a_a1_apply s hc p 0)

/-- A vector of `b` row sums stood up as a column, transposed into a row and spread over `a` rows reads, at (p, q),
    entry `q`. -/
theorem row_spread {a b : ℕ} (s : FVec Ideal ⟨1, ![b]⟩ .f32) (hc : (⟨1, ![b]⟩ : Shape).ShapeCasts ⟨2, ![b, 1]⟩)
    (ht : (⟨2, ![b, 1]⟩ : Shape).Transposes [1, 0] ⟨2, ![1, b]⟩)
    (hb : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ s hc) ht) hb (ix2 p q) = s (ix1 q) :=
  (broadcastTo_1b_ab_apply _ hb p q).trans
    ((transpose_ix2_apply _ ht (0 : Fin 1) q).trans (Cert.LibColumnCast.shapeCast_a_a1_apply s hc q 0))

/-! ## The matrix product: where its two operand indices sit -/

/-- The product's dimension numbers: both operands contract their feature axis. -/
abbrev dims := dot_S2048x256_S1024x256_S2048x1024_1_1_0_0_n_n

theorem left_row (i : S2048x1024.Idx) (c : dims.contr.Idx) : (dims.lhsIdx i c (0 : Fin 2)).val = (i (0 : Fin 2)).val := by
  unfold DotDims.lhsIdx
  rw [dif_neg (show ¬(0 : Fin S2048x256.rank) ∈ dims.lhsBatch by decide),
    dif_pos (show (0 : Fin S2048x256.rank) ∈ dims.lhsNonContracting by decide)]
  rfl

theorem left_feature (i : S2048x1024.Idx) (c : dims.contr.Idx) :
    (dims.lhsIdx i c (1 : Fin 2)).val = (c ⟨0, by decide⟩).val :=
  dims.lhsIdx_val_of_single rfl i c

theorem right_row (i : S2048x1024.Idx) (c : dims.contr.Idx) : (dims.rhsIdx i c (0 : Fin 2)).val = (i (1 : Fin 2)).val := by
  unfold DotDims.rhsIdx
  rw [dif_neg (show ¬(0 : Fin S1024x256.rank) ∈ dims.rhsBatch by decide),
    dif_pos (show (0 : Fin S1024x256.rank) ∈ dims.rhsNonContracting by decide)]
  rfl

theorem right_feature (i : S2048x1024.Idx) (c : dims.contr.Idx) :
    (dims.rhsIdx i c (1 : Fin 2)).val = (c ⟨0, by decide⟩).val :=
  dims.rhsIdx_val_of_single rfl i c

/-- The product of the x block with the y block into the zero accumulator, read at (p, q): the inner product of row
    `p` of the one with row `q` of the other. -/
theorem product_apply (x : FVec Ideal S2048x256 .f32) (y : FVec Ideal S1024x256 .f32) (p : Fin 2048) (q : Fin 1024) :
    matmul dims none x y (constant S2048x1024 .f32 0x00000000#32) (ix2 p q) = Cert.Rbf.inner x y p q :=
  Idealize.ShloMosaic.MatmulRows.matmul_zero_rows dims rfl rfl left_row left_feature right_row right_feature none x y p q

/-! ## The payload at an entry -/

/-- The body's stored value at (p, q), from the two loaded blocks. -/
theorem payload_apply (x : FVec Ideal S2048x256 .f32) (y : FVec Ideal S1024x256 .f32) (p : Fin 2048) (q : Fin 1024) :
    k0_pay1 (F := Ideal) x y (ix2 p q)
      = Cert.Rbf.entry (Cert.Rbf.sqNorm x p) (Cert.Rbf.sqNorm y q) (Cert.Rbf.inner x y p q) := by
  unfold k0_pay1
  show Ideal.exp (Ideal.ofBits .f32 0xBF800000#32 * max
      (broadcastTo S2048x1024 (shapeCast S2048x1 (multiReduction .add [1] S2048 (mulf x x) 0x00000000#32
          reduces_S2048x256_S2048 (.inl rfl) rfl) shapeCasts_S2048_S2048x1) broadcasts_S2048x1_S2048x1024 (ix2 p q)
        + broadcastTo S2048x1024 (transpose S1x1024 [1, 0] (shapeCast S1024x1 (multiReduction .add [1] S1024 (mulf y y)
            0x00000000#32 reduces_S1024x256_S1024 (.inl rfl) rfl) shapeCasts_S1024_S1024x1)
            transposes_S1024x1_p1_0_S1x1024) broadcasts_S1x1024_S2048x1024 (ix2 p q)
        - Ideal.ofBits .f32 0x40000000#32
          * matmul dims none x y (constant S2048x1024 .f32 0x00000000#32) (ix2 p q))
      (Ideal.ofBits .f32 0x00000000#32)) = _
  rw [column_spread _ shapeCasts_S2048_S2048x1 broadcasts_S2048x1_S2048x1024 p q,
    row_spread _ shapeCasts_S1024_S1024x1 transposes_S1024x1_p1_0_S1x1024 broadcasts_S1x1024_S2048x1024 p q,
    laneSumSq x reduces_S2048x256_S2048 p, laneSumSq y reduces_S1024x256_S1024 q, product_apply x y p q]
  rfl

end Cert.KernelIdeal.BlockEntry

end
-- ==== Proof.ArrayValue.lean ====
/-
  From the blocks to the whole matrix.

  The grid has 4 × 8 points. At point (i, j) the kernel reads rows 2048·i … 2048·i + 2047 of x and rows
  1024·j … 1024·j + 1023 of y, and writes back the 2048 × 1024 block of the result whose corner is (2048·i, 1024·j).
  Entry (p, q) of that block depends on row p of the x block and row q of the y block only, which are rows
  2048·i + p of x and 1024·j + q of y: so the block written back is the block of the radial-basis-function matrix of
  the whole arrays. The 32 blocks tile the 8192 × 8192 result — the point that covers entry (r, s) is
  (r / 2048, s / 1024) — so after the run the result array is that matrix.
-/
import proofs.«181214_j65481071399427_2_alg».proof.Proof.Gen.KernelIdeal.Value
import proofs.«181214_j65481071399427_2_alg».proof.Proof.BlockEntry
import proofs.«181214_j65481071399427_2_alg».proof.Proof.Rbf

noncomputable section

open scoped BigOperators

namespace Cert.KernelIdeal.ArrayValue

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-! ## One entry of a block is one entry of the matrix -/

/-- If row `j 0` of the x block is row `i 0` of X and row `j 1` of the y block is row `i 1` of Y, the body's value at
    `j` is the matrix of X and Y at `i`: an entry depends on its two rows only. -/
theorem payload_is_rbf (X Y : (⟨2, ![8192, 256]⟩ : Shape).Idx → EReal) (x0 : FVec Ideal S2048x256 .f32)
    (x1 : FVec Ideal S1024x256 .f32) (j : S2048x1024.Idx) (i : S8192x8192.Idx)
    (hx : ∀ k : Fin 256, x0 (ix2 (j 0) k) = X (ix2 (i 0) k))
    (hy : ∀ k : Fin 256, x1 (ix2 (j 1) k) = Y (ix2 (i 1) k)) :
    k0_pay1 (F := Ideal) x0 x1 j = Cert.Rbf.rbf X Y i := by
  obtain ⟨p, q, rfl⟩ : ∃ (p : Fin 2048) (q : Fin 1024), j = ix2 p q := ⟨j 0, j 1, eq_ix2 j⟩
  obtain ⟨r, s, rfl⟩ : ∃ (r : Fin 8192) (s : Fin 8192), i = ix2 r s := ⟨i 0, i 1, eq_ix2 i⟩
  have hx' : ∀ k : Fin 256, x0 (ix2 p k) = X (ix2 r k) := hx
  have hy' : ∀ k : Fin 256, x1 (ix2 q k) = Y (ix2 s k) := hy
  rw [Cert.KernelIdeal.BlockEntry.payload_apply, Cert.Rbf.rbf_apply]
  unfold Cert.Rbf.sqNorm Cert.Rbf.inner
  simp only [hx', hy']

/-! ## The index maps over the grid -/

theorem zero_offsets : (![0, 0] : Fin 2 → Nat) = fun _ => 0 := funext fun a => by fin_cases a <;> rfl

/-- Decided over the 32 points: the x window's row block is the output's row block, the y window's row block is the
    output's column block, both read all 256 features, and the output's block indices stay in 0 … 3 and 0 … 7. -/
theorem index_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 7 :=
  (by decide +kernel : ∀ t : Fin grid0.N, _)

/-- Every one of the 4 × 8 blocks of the result is some point's. -/
theorem index_onto : ∀ (b0 : Fin 4) (b1 : Fin 8), ∃ t : Fin cfg0.N, win0_2.index t = ![b0.val, b1.val] :=
  (by decide +kernel : ∀ (b0 : Fin 4) (b1 : Fin 8), ∃ t : Fin grid0.N, win0_2.index t = ![b0.val, b1.val])

/-! ## The input blocks as rows of the arrays -/

/-- The x window's block at point `t`, read at `y`, is the array at the index `i` whose row is the block's first row plus
    `y`'s and whose feature is `y`'s. -/
theorem x_block_apply (c : Dev nD) (t : Fin cfg0.N) (y : S2048x256.Idx) (i : S8192x256.Idx)
    (h0 : win0_0.index t (0 : Fin 2) * 2048 + 1 * (y 0).val = (i 0).val)
    (h1 : win0_0.index t (1 : Fin 2) * 256 + 1 * (y 1).val = (i 1).val) :
    (iblk m c 0 t : Vec Ideal S2048x256 .f32) y = (V m c main_arg0 : S8192x256.Idx → EReal) i := by
  unfold iblk
  rw [View.read_apply]
  show V m c main_arg0 _ = V m c main_arg0 _
  refine congrArg _ (funext fun a => Fin.ext ?_)
  match a with
  | ⟨0, _⟩ => exact h0
  | ⟨1, _⟩ => exact h1

/-- The y window's block at point `t`, likewise. -/
theorem y_block_apply (c : Dev nD) (t : Fin cfg0.N) (y : S1024x256.Idx) (i : S8192x256.Idx)
    (h0 : win0_1.index t (0 : Fin 2) * 1024 + 1 * (y 0).val = (i 0).val)
    (h1 : win0_1.index t (1 : Fin 2) * 256 + 1 * (y 1).val = (i 1).val) :
    (iblk m c 1 t : Vec Ideal S1024x256 .f32) y = (V m c main_arg1 : S8192x256.Idx → EReal) i := by
  unfold iblk
  rw [View.read_apply]
  show V m c main_arg1 _ = V m c main_arg1 _
  refine congrArg _ (funext fun a => Fin.ext ?_)
  match a with
  | ⟨0, _⟩ => exact h0
  | ⟨1, _⟩ => exact h1

/-! ## What a point writes back -/

/-- Point `t` writes back block `t` of the radial-basis-function matrix of the two argument arrays. -/
theorem flushed_eq (c : Dev nD) (t : Fin cfg0.N) :
    (dats m 0 c).flushed 2 t
      = ((cfg0.win 2).blk t).view.read (Elt Ideal) (Cert.Rbf.rbf (V m c main_arg0) (V m c main_arg1)) := by
  rw [Value.flushed2]
  unfold out0_2
  rw [View.canon_unit_zero zero_offsets]
  simp only [View.ld_unit_zero (S := S2048x256) zero_offsets, View.ld_unit_zero (S := S1024x256) zero_offsets]
  obtain ⟨e0, e1, e2, e3, -, -⟩ := index_facts t
  funext j
  show k0_pay1 (F := Ideal) (iblk m c 0 t) (iblk m c 1 t) j
    = Cert.Rbf.rbf (V m c main_arg0) (V m c main_arg1) (((cfg0.win 2).blk t).view.emb j)
  refine payload_is_rbf (V m c main_arg0) (V m c main_arg1) (iblk m c 0 t) (iblk m c 1 t) j
    (((cfg0.win 2).blk t).view.emb j) (fun k => ?_) (fun k => ?_)
  · refine x_block_apply m c t (ix2 (j 0) k) (ix2 ((((cfg0.win 2).blk t).view.emb j) 0) k) ?_ ?_
    · show win0_0.index t (0 : Fin 2) * 2048 + 1 * (j 0).val = win0_2.index t (0 : Fin 2) * 2048 + 1 * (j 0).val
      rw [e0]
    · show win0_0.index t (1 : Fin 2) * 256 + 1 * k.val = k.val
      rw [e1]; omega
  · refine y_block_apply m c t (ix2 (j 1) k) (ix2 ((((cfg0.win 2).blk t).view.emb j) 1) k) ?_ ?_
    · show win0_1.index t (0 : Fin 2) * 1024 + 1 * (j 1).val = win0_2.index t (1 : Fin 2) * 1024 + 1 * (j 1).val
      rw [e2]
    · show win0_1.index t (1 : Fin 2) * 256 + 1 * k.val = k.val
      rw [e3]; omega

/-! ## The blocks tile the result -/

/-- An entry of the result is in point `t`'s block iff each coordinate is in the block's range on its axis. -/
theorem mem_block (t : Fin cfg0.N) (i : S8192x8192.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Every entry (r, s) of the result is in the block of the point with block indices (r / 2048, s / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-! ## The result array, and the run -/

/-- After the run the result array is the radial-basis-function matrix of the two argument arrays. -/
theorem final (c : Dev nD) :
    (dats m 0 c).arrAt 2 cfg0.N
      = Cert.Rbf.rbf (m ((c : Thread nD τ).loc main_arg0)) (m ((c : Thread nD τ).loc main_arg1)) :=
  (dats m 0 c).arrAt_eq_of_cover 2 (Cert.Rbf.rbf (V m c main_arg0) (V m c main_arg1))
    (fun t _ => flushed_eq m c t) covered

/-- Every weakly fair execution of the kernel's program terminates with the result array at that matrix and the two
    arguments unchanged. -/
theorem run : θ_run defs (onTc (τ := τ) (main (F := Ideal))) ⟨m, fun _ => 0, ρ⟩ fun r => ∀ c : Dev nD,
      r.2.mem ((c : Thread nD τ).loc main_v0)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceIsRbf.lean ====
/-
  The reference program computes the radial-basis-function matrix.

  Its 23 host operations, read one at a time at an entry (p, q): the two row sums of squares (each the zero word plus a
  sum over the 256 features, stood up as a column and as a row and spread over the matrix), the product of x with the
  transpose of y as a sum over the features, then `x2 + y2 - 2·xy`, the clamp at zero, the product with -1 and the
  exponential. The zero the sums start from is the real number 0, so it drops; what is left is `Rbf.entry` of the
  squared norms of row p of x and row q of y and of their inner product.
-/
import proofs.«181214_j65481071399427_2_alg».proof.Proof.Gen.ReferenceIdeal.Read
import proofs.«181214_j65481071399427_2_alg».proof.Proof.Rbf
import Idealize.ShloMosaic.PureOps.Ideal.Laws

noncomputable section

open scoped BigOperators

namespace Cert.ReferenceIdeal.IsRbf

open Cert.ReferenceIdeal Cert.ReferenceIdeal.Read Idealize.ShloMosaic Idealize.ShloMosaic.ValueIdx

/-- A sum started from the f32 zero word is the sum: the word denotes the real number 0. -/
theorem zero_word_add (s : EReal) : Ideal.ofBits .f32 0x00000000#32 + s = s := by
  rw [Ideal.ofBits_zero_f32, zero_add]

/-- Through the column and its spreading, entry (p, q) reads the row sum of x at (p, k). -/
theorem row_of_x (p q : Fin 8192) (k : Fin 256) :
    idx_main_v1 (idx_main_v5 (idx_main_v7 (ix2 p q))) k = ix2 p k :=
  funext fun a => Fin.ext (by match a with | ⟨0, _⟩ => rfl | ⟨1, _⟩ => rfl)

/-- Through the row and its spreading, entry (p, q) reads the row sum of y at (q, k). -/
theorem row_of_y (p q : Fin 8192) (k : Fin 256) :
    idx_main_v3 (idx_main_v6 (idx_main_v8 (ix2 p q))) k = ix2 q k :=
  funext fun a => Fin.ext (by match a with | ⟨0, _⟩ => rfl | ⟨1, _⟩ => rfl)

/-- The product's left operand at entry (p, q) and feature k is x at (p, k). -/
theorem left_of_product (p q : Fin 8192) (k : Fin 256) : lidx_main_v4 (ix2 p q) k = ix2 p k :=
  funext fun a => Fin.ext (by match a with | ⟨0, _⟩ => rfl | ⟨1, _⟩ => rfl)

/-- The product's right operand at entry (p, q) and feature k is y at (q, k): row q of y, the transpose never formed. -/
theorem right_of_product (p q : Fin 8192) (k : Fin 256) : ridx_main_v4 (ix2 p q) k = ix2 q k :=
  funext fun a => Fin.ext (by match a with | ⟨0, _⟩ => rfl | ⟨1, _⟩ => rfl)

/-- The reference's result, as a function of its two arguments, is the radial-basis-function matrix. -/
theorem result_eq (x y : (⟨S8192x256, .f32⟩ : BufTy).Contents (Elt Ideal)) :
    val_main_v17 (F := Ideal) x y = Cert.Rbf.rbf x y := by
  funext i
  obtain ⟨p, q, rfl⟩ : ∃ (p : Fin 8192) (q : Fin 8192), i = ix2 p q := ⟨i 0, i 1, eq_ix2 i⟩
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply,
    val_main_v1_apply, val_main_cst_apply, val_main_v8_apply, val_main_v6_apply, val_main_v3_apply,
    val_main_cst_0_apply]
  simp only [val_main_v0_apply, val_main_v2_apply, row_of_x, row_of_y, left_of_product, right_of_product,
    zero_word_add, Ideal.hostUnary_exp_def, Ideal.mulf_def, Ideal.maximumf_def, Ideal.subf_def, Ideal.addf_def,
    Ideal.ofBits_def]
  rfl

end Cert.ReferenceIdeal.IsRbf

end
-- ==== Proof.lean ====
/-
  The pairwise radial-basis-function matrix of the rows of x and y, both [8192, 256]:

      out (p, q) = exp (-1 · max (‖x_p‖² + ‖y_q‖² - 2 · ⟨x_p, y_q⟩, 0)).

  The kernel computes it block by block on a 4 × 8 grid: at point (i, j) it loads 2048 rows of x and 1024 rows of y,
  takes the two lane sums of squares, multiplies the two blocks contracting the feature axis of both, and stores the
  2048 × 1024 block. The reference computes the same expression on the whole arrays with a host sum, a host
  `dot_general` and a host exponential.

  On the extended reals the two are one function, with no law of arithmetic between them: the operations are the same,
  in the same order, on the same constants (the f32 words of -1, 2 and 0). What differs is only where the sums are
  taken. An entry depends on one row of x and one row of y, the kernel's block at (i, j) holds exactly the rows
  2048·i + p and 1024·j + q, and the 32 blocks tile the result (`ArrayValue`); a lane sum from the zero accumulator,
  a host sum from the zero word and a matrix product into a zero accumulator are the plain sums over the 256 features
  (`BlockEntry`, `ReferenceIsRbf`). Finiteness of the inputs is never used.

  Nothing is rewritten between the kernel as printed and its idealization, so that conjunct is `True`.
-/
import proofs.«181214_j65481071399427_2_alg».proof.Defs
import proofs.«181214_j65481071399427_2_alg».proof.Proof.Gen.Kernel
import proofs.«181214_j65481071399427_2_alg».proof.Proof.Gen.Kernel.Frame
import proofs.«181214_j65481071399427_2_alg».proof.Proof.Gen.KernelIdeal
import proofs.«181214_j65481071399427_2_alg».proof.Proof.Gen.KernelIdeal.Frame
import proofs.«181214_j65481071399427_2_alg».proof.Proof.Gen.KernelIdeal.Value
import proofs.«181214_j65481071399427_2_alg».proof.Proof.Gen.ReferenceIdeal
import proofs.«181214_j65481071399427_2_alg».proof.Proof.Gen.ReferenceIdeal.Run
import proofs.«181214_j65481071399427_2_alg».proof.Proof.Gen.ReferenceIdeal.Read
import proofs.«181214_j65481071399427_2_alg».proof.Proof.Gen.Pre_finite_inputs
import proofs.«181214_j65481071399427_2_alg».proof.Proof.ArrayValue
import proofs.«181214_j65481071399427_2_alg».proof.Proof.ReferenceIsRbf
import Idealize.ShloMosaic.Adequacy
import Idealize.ShloMosaic.Init

noncomputable section

namespace Cert.Proof

open Idealize.ShloMosaic Idealize.ShloMosaic.TcCoe Idealize.SL.Sem

/-- The kernel as printed runs and leaves x and y as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves x and y as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on x and y, both programs end with the result at the radial-basis-function matrix of x
    and y: the kernel block by block, the reference operation by operation. -/
theorem algebraic : Cert.algebraic_KernelIdeal_ReferenceIdeal := by
  intro m ρ m' ρ' _ hagree
  refine ⟨fun c => Cert.Rbf.rbf (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.IsRbf.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
